-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3 : Shape := ⟨3, ![4, 2048, 3]⟩
abbrev S4x16384x3 : Shape := ⟨3, ![4, 16384, 3]⟩
abbrev S4x2048x64 : Shape := ⟨3, ![4, 2048, 64]⟩
abbrev S4x16384x64 : Shape := ⟨3, ![4, 16384, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S4x2048x3 : S_.BroadcastsInDim S4x2048x3 (![] : Fin 0 → Fin S4x2048x3.rank)
  reducesTo_S4x2048x3_S_d0_1_2 : S4x2048x3.ReducesTo [0, 1, 2] S_
  h_S_ : 0 < S_.numel
  bcast_S_S4x16384x3 : S_.BroadcastsInDim S4x16384x3 (![] : Fin 0 → Fin S4x16384x3.rank)
  reducesTo_S4x16384x3_S_d0_1_2 : S4x16384x3.ReducesTo [0, 1, 2] S_
  bcast_S_S4x2048x64 : S_.BroadcastsInDim S4x2048x64 (![] : Fin 0 → Fin S4x2048x64.rank)
  reducesTo_S4x2048x64_S_d0_1_2 : S4x2048x64.ReducesTo [0, 1, 2] S_
  bcast_S_S4x16384x64 : S_.BroadcastsInDim S4x16384x64 (![] : Fin 0 → Fin S4x16384x64.rank)
  reducesTo_S4x16384x64_S_d0_1_2 : S4x16384x64.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg11 : FVec F S64 .f32) (main_arg12 : FVec F S64 .f32) (main_arg13 : FVec F S64 .f32) (main_arg14 : FVec F S64 .f32) (main_arg15 : FVec F S64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S128 .f32) (main_arg8 : FVec F S128 .f32) (main_arg9 : FVec F S128 .f32) (main_arg10 : FVec F S64x128 .f32) (main_arg11 : FVec F S64 .f32) (main_arg12 : FVec F S64 .f32) (main_arg13 : FVec F S64 .f32) (main_arg14 : FVec F S64 .f32) (main_arg15 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S64x128 .f32) (main_arg11 : FVec F S64 .f32) (main_arg12 : FVec F S64 .f32) (main_arg13 : FVec F S64 .f32) (main_arg14 : FVec F S64 .f32) (main_arg15 : FVec F S64 .f32) (main_v13 : IVec S_ 1) (main_v16 : IVec S4x16384x64 1) : IVec S_ 1 :=
  let main_c_5 : IVec S_ 1 := constantI S_ 1 1#1
  let main_v17 : IVec S_ 1 := (fun x v => Host.reduce IntOp.andi x v reducesTo_S4x16384x64_S_d0_1_2 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4x2048x3 .f32) (main_arg1 : FVec F S4x16384x3 .f32) (main_arg2 : FVec F S4x2048x64 .f32) (main_arg3 : FVec F S4x16384x64 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S64x128 .f32) (main_arg11 : FVec F S64 .f32) (main_arg12 : FVec F S64 .f32) (main_arg13 : FVec F S64 .f32) (main_arg14 : FVec F S64 .f32) (main_arg15 : FVec F S64 .f32) : IVec S_ 1 :=
  let main_v0 : FVec F S4x2048x3 .f32 := Host.absf main_arg0
  let main_cst : FVec F S_ .f32 := constant S_ .f32 0x7F800000#32
  let main_v1 : FVec F S4x2048x3 .f32 := broadcastInDim S4x2048x3 ![] bcast_S_S4x2048x3 main_cst
  let main_v2 : IVec S4x2048x3 1 := cmpf .olt main_v0 main_v1
  let main_c : IVec S_ 1 := constantI S_ 1 1#1
  let main_v3 : IVec S_ 1 := (fun x v => Host.reduce IntOp.andi x v reducesTo_S4x2048x3_S_d0_1_2 h_S_) main_v2 main_c
  let main_v4 : FVec F S4x16384x3 .f32 := Host.absf main_arg1
  let main_cst_0 : FVec F S_ .f32 := constant S_ .f32 0x7F800000#32
  let main_v5 : FVec F S4x16384x3 .f32 := broadcastInDim S4x16384x3 ![] bcast_S_S4x16384x3 main_cst_0
  let main_v6 : IVec S4x16384x3 1 := cmpf .olt main_v4 main_v5
  let main_c_1 : IVec S_ 1 := constantI S_ 1 1#1
  let main_v7 : IVec S_ 1 := (fun x v => Host.reduce IntOp.andi x v reducesTo_S4x16384x3_S_d0_1_2 h_S_) main_v6 main_c_1
  let main_v8 : IVec S_ 1 := andi main_v3 main_v7
  let main_v9 : FVec F S4x2048x64 .f32 := Host.absf main_arg2
  let main_cst_2 : FVec F S_ .f32 := constant S_ .f32 0x7F800000#32
  let main_v10 : FVec F S4x2048x64 .f32 := broadcastInDim S4x2048x64 ![] bcast_S_S4x2048x64 main_cst_2
  let main_v11 : IVec S4x2048x64 1 := cmpf .olt main_v9 main_v10
  let main_c_3 : IVec S_ 1 := constantI S_ 1 1#1
  let main_v12 : IVec S_ 1 := (fun x v => Host.reduce IntOp.andi x v reducesTo_S4x2048x64_S_d0_1_2 h_S_) main_v11 main_c_3
  let main_v13 : IVec S_ 1 := andi main_v8 main_v12
  let main_v14 : FVec F S4x16384x64 .f32 := Host.absf main_arg3
  let main_cst_4 : FVec F S_ .f32 := constant S_ .f32 0x7F800000#32
  let main_v15 : FVec F S4x16384x64 .f32 := broadcastInDim S4x16384x64 ![] bcast_S_S4x16384x64 main_cst_4
  let main_v16 : IVec S4x16384x64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4x2048x3 : Shape := ⟨3, ![4, 2048, 3]⟩
abbrev S4x16384x3 : Shape := ⟨3, ![4, 16384, 3]⟩
abbrev S4x2048x64 : Shape := ⟨3, ![4, 2048, 64]⟩
abbrev S4x16384x64 : Shape := ⟨3, ![4, 16384, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1024x3 : Shape := ⟨3, ![1, 1024, 3]⟩
abbrev S1x2048x3 : Shape := ⟨3, ![1, 2048, 3]⟩
abbrev S1x2048x64 : Shape := ⟨3, ![1, 2048, 64]⟩
abbrev S1x1024x64 : Shape := ⟨3, ![1, 1024, 64]⟩
abbrev S1024x3 : Shape := ⟨2, ![1024, 3]⟩
abbrev S2048x3 : Shape := ⟨2, ![2048, 3]⟩
abbrev S1024x1 : Shape := ⟨2, ![1024, 1]⟩
abbrev S2048x1 : Shape := ⟨2, ![2048, 1]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S2048x64 : Shape := ⟨2, ![2048, 64]⟩
abbrev S1024x64 : Shape := ⟨2, ![1024, 64]⟩
abbrev S1024x128 : Shape := ⟨2, ![1024, 128]⟩
abbrev S1x128 : Shape := ⟨2, ![1, 128]⟩
abbrev S1x64 : Shape := ⟨2, ![1, 64]⟩

abbrev nBuf : Space → Nat
  | .hbm => 17
  | .vmem => 20
  | .smem => 0
  | _ => 0

abbrev bufTy : (tb : Table) → Fin (tcTables nBuf tb) → BufTy
  | .hbm, ⟨0, _⟩ => ⟨S4x2048x3, .f32⟩
  | .hbm, ⟨1, _⟩ => ⟨S4x16384x3, .f32⟩
  | .hbm, ⟨2, _⟩ => ⟨S4x2048x64, .f32⟩
  | .hbm, ⟨3, _⟩ => ⟨S4x16384x64, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S4x16384x64, .f32⟩
  | .local _ .vmem, ⟨0, _⟩ => ⟨S1x1024x3, .f32⟩
  | .local _ .vmem, ⟨1, _⟩ => ⟨S1x1024x3, .f32⟩
  | .local _ .vmem, ⟨2, _⟩ => ⟨S1x2048x3, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S64x128, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S1x1024x64, .f32⟩
  | .local _ .vmem, ⟨19, _⟩ => ⟨S1x1024x64, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S2048x3_o0_0_S2048x1 : S2048x3.Slices ![0, 0] S2048x1
  shapeCasts_S2048x1_S2048 : S2048x1.ShapeCasts S2048
  shapeCasts_S2048_S1x2048 : S2048.ShapeCasts S1x2048
  slices_S2048x3_o0_1_S2048x1 : S2048x3.Slices ![0, 1] S2048x1
  slices_S2048x3_o0_2_S2048x1 : S2048x3.Slices ![0, 2] S2048x1
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  concatenates_S1024x64_S1024x64_S1024x128_d1 : Shape.Concatenates [S1024x64, S1024x64] S1024x128 1
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  shapeCasts_S1024x64_S1x1024x64 : S1024x64.ShapeCasts S1x1024x64
  dot_S1024x2048_S2048x64_S1024x64_1_0_0_1_n_n_wf : DotDims.WF S1024x2048 S2048x64 S1024x64 [1] [0] [0] [1] [] []
  dot_S1024x128_S128x128_S1024x128_1_1_0_0_n_n_wf : DotDims.WF S1024x128 S128x128 S1024x128 [1] [1] [0] [0] [] []
  dot_S1024x128_S64x128_S1024x64_1_1_0_0_n_n_wf : DotDims.WF S1024x128 S64x128 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x16384x3.size a
  hwx0_0 : ∀ i : grid0.Coords, EltTy.bits .f32 = 32 ∨ (Rect.block (s := S4x16384x3) S1x1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S4x2048x3.size a
  hwx0_1 : ∀ i : grid0.Coords, EltTy.bits .f32 = 32 ∨ (Rect.block (s := S4x2048x3) S1x2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S4x2048x64.size a
  hwx0_2 : ∀ i : grid0.Coords, EltTy.bits .f32 = 32 ∨ (Rect.block (s := S4x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x16384x64.size a
  hwx0_3 : ∀ i : grid0.Coords, EltTy.bits .f32 = 32 ∨ (Rect.block (s := S4x16384x64) S1x1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S64x128.size a
  hwx0_10 : ∀ i : grid0.Coords, EltTy.bits .f32 = 32 ∨ (Rect.block (s := S64x128) S64x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64.size a ≤ S64.size a
  hwx0_15 : ∀ i : grid0.Coords, EltTy.bits .f32 = 32 ∨ (Rect.block (s := S64) S64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1024x64.size a ≤ S4x16384x64.size a
  hwx0_16 : ∀ i : grid0.Coords, EltTy.bits .f32 = 32 ∨ (Rect.block (s := S4x16384x64) S1x1024x64.size (cc0_transform_16 i) (hinb0_16 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v0) S1x1024x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4x2048x3 : Shape := ⟨3, ![4, 2048, 3]⟩
abbrev S4x16384x3 : Shape := ⟨3, ![4, 16384, 3]⟩
abbrev S4x2048x64 : Shape := ⟨3, ![4, 2048, 64]⟩
abbrev S4x16384x64 : Shape := ⟨3, ![4, 16384, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S4x16384 : Shape := ⟨2, ![4, 16384]⟩
abbrev S4x16384x1 : Shape := ⟨3, ![4, 16384, 1]⟩
abbrev S4x2048 : Shape := ⟨2, ![4, 2048]⟩
abbrev S4x1x2048 : Shape := ⟨3, ![4, 1, 2048]⟩
abbrev S4x16384x2048 : Shape := ⟨3, ![4, 16384, 2048]⟩
abbrev S4x16384x128 : Shape := ⟨3, ![4, 16384, 128]⟩
abbrev S1x1x128 : Shape := ⟨3, ![1, 1, 128]⟩
abbrev S1x1x64 : Shape := ⟨3, ![1, 1, 64]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x16384x3, .f32⟩
  | .hbm, ⟨2, _⟩ => ⟨S4x2048x64, .f32⟩
  | .hbm, ⟨3, _⟩ => ⟨S4x16384x64, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S4x16384x3, .f32⟩
  | .hbm, ⟨17, _⟩ => ⟨S_, .f32⟩
  | .hbm, ⟨18, _⟩ => ⟨S4x16384, .f32⟩
  | .hbm, ⟨19, _⟩ => ⟨S4x16384x1, .f32⟩
  | .hbm, ⟨20, _⟩ => ⟨S4x2048x3, .f32⟩
  | .hbm, ⟨21, _⟩ => ⟨S_, .f32⟩
  | .hbm, ⟨22, _⟩ => ⟨S4x2048, .f32⟩
  | .hbm, ⟨23, _⟩ => ⟨S4x1x2048, .f32⟩
  | .hbm, ⟨24, _⟩ => ⟨S4x16384x2048, .f32⟩
  | .hbm, ⟨25, _⟩ => ⟨S4x16384x2048, .f32⟩
  | .hbm, ⟨26, _⟩ => ⟨S4x16384x2048, .f32⟩
  | .hbm, ⟨27, _⟩ => ⟨S4x16384x2048, .f32⟩
  | .hbm, ⟨28, _⟩ => ⟨S_, .f32⟩
  | .hbm, ⟨29, _⟩ => ⟨S4x16384x2048, .f32⟩
  | .hbm, ⟨30, _⟩ => ⟨S4x16384x2048, .f32⟩
  | .hbm, ⟨31, _⟩ => ⟨S4x16384x2048, .f32⟩
  | .hbm, ⟨32, _⟩ => ⟨S_, .f32⟩
  | .hbm, ⟨33, _⟩ => ⟨S4x16384x2048, .f32⟩
  | .hbm, ⟨34, _⟩ => ⟨S4x16384x2048, .f32⟩
  | .hbm, ⟨35, _⟩ => ⟨S_, .f32⟩
  | .hbm, ⟨36, _⟩ => ⟨S4x16384x2048, .f32⟩
  | .hbm, ⟨37, _⟩ => ⟨S4x16384x2048, .f32⟩
  | .hbm, ⟨38, _⟩ => ⟨S_, .f32⟩
  | .hbm, ⟨39, _⟩ => ⟨S4x16384, .f32⟩
  | .hbm, ⟨40, _⟩ => ⟨S4x16384x1, .f32⟩
  | .hbm, ⟨41, _⟩ => ⟨S4x16384x2048, .f32⟩
  | .hbm, ⟨42, _⟩ => ⟨S4x16384x2048, .f32⟩
  | .hbm, ⟨43, _⟩ => ⟨S4x16384x64, .f32⟩
  | .hbm, ⟨44, _⟩ => ⟨S4x16384x128, .f32⟩
  | .hbm, ⟨45, _⟩ => ⟨S4x16384x128, .f32⟩
  | .hbm, ⟨46, _⟩ => ⟨S1x1x128, .f32⟩
  | .hbm, ⟨47, _⟩ => ⟨S4x16384x128, .f32⟩
  | .hbm, ⟨48, _⟩ => ⟨S4x16384x128, .f32⟩
  | .hbm, ⟨49, _⟩ => ⟨S1x1x128, .f32⟩
  | .hbm, ⟨50, _⟩ => ⟨S4x16384x128, .f32⟩
  | .hbm, ⟨51, _⟩ => ⟨S4x16384x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x1x128, .f32⟩
  | .hbm, ⟨57, _⟩ => ⟨S4x16384x128, .f32⟩
  | .hbm, ⟨58, _⟩ => ⟨S4x16384x128, .f32⟩
  | .hbm, ⟨59, _⟩ => ⟨S1x1x128, .f32⟩
  | .hbm, ⟨60, _⟩ => ⟨S4x16384x128, .f32⟩
  | .hbm, ⟨61, _⟩ => ⟨S4x16384x128, .f32⟩
  | .hbm, ⟨62, _⟩ => ⟨S1x1x128, .f32⟩
  | .hbm, ⟨63, _⟩ => ⟨S4x16384x128, .f32⟩
  | .hbm, ⟨64, _⟩ => ⟨S4x16384x128, .f32⟩
  | .hbm, ⟨65, _⟩ => ⟨S_, .f32⟩
  | .hbm, ⟨66, _⟩ => ⟨S4x16384x128, .f32⟩
  | .hbm, ⟨67, _⟩ => ⟨S4x16384x128, .f32⟩
  | .hbm, ⟨68, _⟩ => ⟨S4x16384x64, .f32⟩
  | .hbm, ⟨69, _⟩ => ⟨S1x1x64, .f32⟩
  | .hbm, ⟨70, _⟩ => ⟨S4x16384x64, .f32⟩
  | .hbm, ⟨71, _⟩ => ⟨S4x16384x64, .f32⟩
  | .hbm, ⟨72, _⟩ => ⟨S1x1x64, .f32⟩
  | .hbm, ⟨73, _⟩ => ⟨S4x16384x64, .f32⟩
  | .hbm, ⟨74, _⟩ => ⟨S4x16384x64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S1x1x64, .f32⟩
  | .hbm, ⟨80, _⟩ => ⟨S4x16384x64, .f32⟩
  | .hbm, ⟨81, _⟩ => ⟨S4x16384x64, .f32⟩
  | .hbm, ⟨82, _⟩ => ⟨S1x1x64, .f32⟩
  | .hbm, ⟨83, _⟩ => ⟨S4x16384x64, .f32⟩
  | .hbm, ⟨84, _⟩ => ⟨S4x16384x64, .f32⟩
  | .hbm, ⟨85, _⟩ => ⟨S1x1x64, .f32⟩
  | .hbm, ⟨86, _⟩ => ⟨S4x16384x64, .f32⟩
  | .hbm, ⟨87, _⟩ => ⟨S4x16384x64, .f32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call0_cst : Ref sig .tc := ⟨.hbm, 65, rfl⟩
abbrev main_call0_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  reducesTo_S4x16384x3_S4x16384_d2 : S4x16384x3.ReducesTo [2] S4x16384
  h_S_ : 0 < S_.numel
  bcast_S4x16384_S4x16384x1_0_1 : S4x16384.BroadcastsInDim S4x16384x1 (![0, 1] : Fin 2 → Fin S4x16384x1.rank)
  reducesTo_S4x2048x3_S4x2048_d2 : S4x2048x3.ReducesTo [2] S4x2048
  bcast_S4x2048_S4x1x2048_0_2 : S4x2048.BroadcastsInDim S4x1x2048 (![0, 2] : Fin 2 → Fin S4x1x2048.rank)
  bcast_S4x16384x1_S4x16384x2048_0_1_2 : S4x16384x1.BroadcastsInDim S4x16384x2048 (![0, 1, 2] : Fin 3 → Fin S4x16384x2048.rank)
  bcast_S4x1x2048_S4x16384x2048_0_1_2 : S4x1x2048.BroadcastsInDim S4x16384x2048 (![0, 1, 2] : Fin 3 → Fin S4x16384x2048.rank)
  bcast_S_S4x16384x2048 : S_.BroadcastsInDim S4x16384x2048 (![] : Fin 0 → Fin S4x16384x2048.rank)
  reducesTo_S4x16384x2048_S4x16384_d2 : S4x16384x2048.ReducesTo [2] S4x16384
  concatenates_S4x16384x64_S4x16384x64_S4x16384x128_d2 : Shape.Concatenates [S4x16384x64, S4x16384x64] S4x16384x128 2
  bcast_S128_S1x1x128_2 : S128.BroadcastsInDim S1x1x128 (![2] : Fin 1 → Fin S1x1x128.rank)
  bcast_S1x1x128_S4x16384x128_0_1_2 : S1x1x128.BroadcastsInDim S4x16384x128 (![0, 1, 2] : Fin 3 → Fin S4x16384x128.rank)
  bcast_S_S128 : S_.BroadcastsInDim S128 (![] : Fin 0 → Fin S128.rank)
  bcast_S_S4x16384x128 : S_.BroadcastsInDim S4x16384x128 (![] : Fin 0 → Fin S4x16384x128.rank)
  bcast_S64_S1x1x64_2 : S64.BroadcastsInDim S1x1x64 (![2] : Fin 1 → Fin S1x1x64.rank)
  bcast_S1x1x64_S4x16384x64_0_1_2 : S1x1x64.BroadcastsInDim S4x16384x64 (![0, 1, 2] : Fin 3 → Fin S4x16384x64.rank)
  bcast_S_S64 : S_.BroadcastsInDim S64 (![] : Fin 0 → Fin S64.rank)
  dot_S4x16384x3_S4x2048x3_S4x16384x2048_2_2_1_1_0_0_wf : DotDims.WF S4x16384x3 S4x2048x3 S4x16384x2048 [2] [2] [1] [1] [0] [0]
  dot_S4x16384x2048_S4x2048x64_S4x16384x64_2_1_1_2_0_0_wf : DotDims.WF S4x16384x2048 S4x2048x64 S4x16384x64 [2] [1] [1] [2] [0] [0]
  dot_S4x16384x128_S128x128_S4x16384x128_2_1_01_0_n_n_wf : DotDims.WF S4x16384x128 S128x128 S4x16384x128 [2] [1] [0, 1] [0] [] []
  dot_S4x16384x128_S64x128_S4x16384x64_2_1_01_0_n_n_wf : DotDims.WF S4x16384x128 S64x128 S4x16384x64 [2] [1] [0, 1] [0] [] []

variable [Facts₀]

def dot_S4x16384x3_S4x2048x3_S4x16384x2048_2_2_1_1_0_0 : DotDims S4x16384x3 S4x2048x3 S4x16384x2048 where
  lhsContracting := [2]
  rhsContracting := [2]
  lhsNonContracting := [1]
  rhsNonContracting := [1]
  lhsBatch := [0]
  rhsBatch := [0]
  wf := dot_S4x16384x3_S4x2048x3_S4x16384x2048_2_2_1_1_0_0_wf
def dot_S4x16384x2048_S4x2048x64_S4x16384x64_2_1_1_2_0_0 : DotDims S4x16384x2048 S4x2048x64 S4x16384x64 where
  lhsContracting := [2]
  rhsContracting := [1]
  lhsNonContracting := [1]
  rhsNonContracting := [2]
  lhsBatch := [0]
  rhsBatch := [0]
  wf := dot_S4x16384x2048_S4x2048x64_S4x16384x64_2_1_1_2_0_0_wf
def dot_S4x16384x128_S128x128_S4x16384x128_2_1_01_0_n_n : DotDims S4x16384x128 S128x128 S4x16384x128 where
  lhsContracting := [2]
  rhsContracting := [1]
  lhsNonContracting := [0, 1]
  rhsNonContracting := [0]
  lhsBatch := []
  rhsBatch := []
  wf := dot_S4x16384x128_S128x128_S4x16384x128_2_1_01_0_n_n_wf
def dot_S4x16384x128_S64x128_S4x16384x64_2_1_01_0_n_n : DotDims S4x16384x128 S64x128 S4x16384x64 where
  lhsContracting := [2]
  rhsContracting := [1]
  lhsNonContracting := [0, 1]
  rhsNonContracting := [0]
  lhsBatch := []
  rhsBatch := []
  wf := dot_S4x16384x128_S64x128_S4x16384x64_2_1_01_0_n_n_wf

class Facts : Prop extends Facts₀ where

variable [Facts]
-- ==== Proof.Spec.lean ====
/-
  Inverse-distance interpolation of features followed by two pointwise normalised affine layers, as ONE function of a
  query row's data.  For a query point the squared distances `dist m` to the 2048 source points give the weights
  `w m = r m / Σ r`, `r m = 1 / (dist m + ε)`; the interpolated feature `Σ_m w m · f m d` is joined after the
  row's own 64 features; then `max(bn₁(x·W₁ᵀ + b₁), 0)` and `bn₂(h·W₂ᵀ + b₂)`, where
  `bn(y) = (y − mean) · rsqrt(var + ε') · γ + β`.
  The squared distance itself has two spellings, `Σ_k (u_k − d_k)²` and `|u|² + |d|² − 2 u·d`; they agree on real
  coordinates (the expansion uses distributivity, which the extended reals lack at the infinities).
-/
import Idealize.ShloMosaic.PureOps.Ideal
import Idealize.ShloMosaic.Lib.ValueIdx
import Mathlib.Algebra.BigOperators.Fin
import Mathlib.Tactic.Ring
import Mathlib.Tactic.NormNum

noncomputable section

namespace Cert.Upsample

open Idealize.ShloMosaic Idealize.ShloMosaic.ValueIdx

/-- The squared distance of two points of 3-space, coordinate differences squared and added left to right. -/
def sqDist (u d : Fin 3 → EReal) : EReal :=
  ((u 0 - d 0) * (u 0 - d 0) + (u 1 - d 1) * (u 1 - d 1)) + (u 2 - d 2) * (u 2 - d 2)

/-- The same distance expanded: `|u|² + |d|² − 2 u·d` (the factor is the word of `2.0`). -/
def sqDistExp (u d : Fin 3 → EReal) : EReal :=
  ((∑ k, u k * u k) + (∑ k, d k * d k)) - Ideal.ofBits .f32 0x40000000#32 * ∑ k, u k * d k

/-- The word `0x40000000` denotes the real `2`. -/
theorem ofBits_two : Ideal.ofBits .f32 0x40000000#32 = ((2 : ℝ) : EReal) := by
  simp [Ideal.ofBits, Ideal.ieee, -EReal.coe_mul]; norm_num

/-- On real coordinates the expanded distance is the distance. -/
theorem sqDistExp_eq (u d : Fin 3 → EReal) (hu : ∀ k, ∃ r : ℝ, u k = (r : EReal)) (hd : ∀ k, ∃ r : ℝ, d k = (r : EReal)) :
    sqDistExp u d = sqDist u d := by
  choose ur hur using hu
  choose dr hdr using hd
  unfold sqDistExp sqDist
  rw [Fin.sum_univ_three, Fin.sum_univ_three, Fin.sum_univ_three, ofBits_two]
  simp only [hur, hdr]
  norm_cast
  ring_nf

/-- The reciprocal `1 / (D + ε)` of a shifted squared distance (both constants as their words). -/
def recip (D : EReal) : EReal :=
  Ideal.div (Ideal.ofBits .f32 0x3F800000#32) (D + Ideal.ofBits .f32 0x322BCC77#32)

/-- The normalised inverse-distance weight of source point `m`. -/
def weight (D : Fin 2048 → EReal) (m : Fin 2048) : EReal :=
  Ideal.div (recip (D m)) (∑ m', recip (D m'))

/-- Evaluation-mode batch normalisation of one value. -/
def bnorm (y mean var gamma beta : EReal) : EReal :=
  ((y - mean) * Ideal.rsqrt (var + Ideal.ofBits .f32 0x3727C5AC#32)) * gamma + beta

section row

variable (D : Fin 2048 → EReal) (fd : Fin 2048 → Fin 64 → EReal) (fu fi : Fin 64 → EReal) (x h : Fin 128 → EReal)
  (W1 : (⟨2, ![128, 128]⟩ : Shape).Idx → EReal) (b1 g1 be1 m1 v1 : (⟨1, ![128]⟩ : Shape).Idx → EReal)
  (W2 : (⟨2, ![64, 128]⟩ : Shape).Idx → EReal) (b2 g2 be2 m2 v2 : (⟨1, ![64]⟩ : Shape).Idx → EReal)

/-- The interpolated feature `d` of the row. -/
def interp (d : Fin 64) : EReal := ∑ m, weight D m * fd m d

/-- The row's 128 input features: its own 64, then the 64 interpolated ones. -/
def joined (c : Fin 128) : EReal :=
  if h : c.val < 64 then fu ⟨c.val, h⟩ else fi ⟨c.val - 64, by have := c.isLt; omega⟩

/-- The hidden layer on a row `x` of input features: affine, normalised, clamped at zero. -/
def hidden (c : Fin 128) : EReal :=
  max (bnorm ((∑ k, x k * W1 (ix2 c k)) + b1 (ix1 c)) (m1 (ix1 c)) (v1 (ix1 c)) (g1 (ix1 c)) (be1 (ix1 c)))
    (Ideal.ofBits .f32 0x00000000#32)

/-- The output layer on a row `h` of hidden features: affine, normalised. -/
def outLayer (o : Fin 64) : EReal :=
  bnorm ((∑ c, h c * W2 (ix2 o c)) + b2 (ix1 o)) (m2 (ix1 o)) (v2 (ix1 o)) (g2 (ix1 o)) (be2 (ix1 o))

/-- The whole row: interpolate, join, two layers. -/
def outRow (o : Fin 64) : EReal :=
  outLayer (hidden (joined fu (interp D fd)) W1 b1 g1 be1 m1 v1) W2 b2 g2 be2 m2 v2 o

end row

/-- The whole result array from the sixteen argument arrays, with the squared distance `sq` of a query point and a
    source point left as a parameter (its two spellings are `sqDist` and `sqDistExp`). -/
def result (sq : (Fin 3 → EReal) → (Fin 3 → EReal) → EReal)
    (xd : (⟨3, ![4, 2048, 3]⟩ : Shape).Idx → EReal) (xu : (⟨3, ![4, 16384, 3]⟩ : Shape).Idx → EReal)
    (fd : (⟨3, ![4, 2048, 64]⟩ : Shape).Idx → EReal) (fu : (⟨3, ![4, 16384, 64]⟩ : Shape).Idx → EReal)
    (W1 : (⟨2, ![128, 128]⟩ : Shape).Idx → EReal) (b1 g1 be1 m1 v1 : (⟨1, ![128]⟩ : Shape).Idx → EReal)
    (W2 : (⟨2, ![64, 128]⟩ : Shape).Idx → EReal) (b2 g2 be2 m2 v2 : (⟨1, ![64]⟩ : Shape).Idx → EReal) :
    (⟨3, ![4, 16384, 64]⟩ : Shape).Idx → EReal := fun i =>
  outRow (fun m => sq (fun k => xu (ix3 (i 0) (i 1) k)) (fun k => xd (ix3 (i 0) m k)))
    (fun m d => fd (ix3 (i 0) m d)) (fun c => fu (ix3 (i 0) (i 1) c)) W1 b1 g1 be1 m1 v1 W2 b2 g2 be2 m2 v2 (i 2)

/-- With real point coordinates the two spellings of the distance give one result array. -/
theorem result_sqDistExp_eq
    (xd : (⟨3, ![4, 2048, 3]⟩ : Shape).Idx → EReal) (xu : (⟨3, ![4, 16384, 3]⟩ : Shape).Idx → EReal)
    (hxd : ∀ i, ∃ r : ℝ, xd i = (r : EReal)) (hxu : ∀ i, ∃ r : ℝ, xu i = (r : EReal))
    (fd : (⟨3, ![4, 2048, 64]⟩ : Shape).Idx → EReal) (fu : (⟨3, ![4, 16384, 64]⟩ : Shape).Idx → EReal)
    (W1 : (⟨2, ![128, 128]⟩ : Shape).Idx → EReal) (b1 g1 be1 m1 v1 : (⟨1, ![128]⟩ : Shape).Idx → EReal)
    (W2 : (⟨2, ![64, 128]⟩ : Shape).Idx → EReal) (b2 g2 be2 m2 v2 : (⟨1, ![64]⟩ : Shape).Idx → EReal) :
    result sqDistExp xd xu fd fu W1 b1 g1 be1 m1 v1 W2 b2 g2 be2 m2 v2
      = result sqDist xd xu fd fu W1 b1 g1 be1 m1 v1 W2 b2 g2 be2 m2 v2 := by
  funext i
  unfold result
  congr 1
  funext m
  exact sqDistExp_eq _ _ (fun k => hxu _) (fun k => hxd _)

end Cert.Upsample

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibPointColumns.lean ====
/-
  Point coordinates as columns and rows, and parameter vectors as rows (Idealize library + the rank-2 keepdims file only).
  A block `[1, a, 3]` of points has its three coordinates cut out as `[a, 1]` columns; a column is either spread along
  the rows of an `[a, b]` matrix (the points index the rows) or turned into a `[1, b]` row and spread down the columns
  (the points index the columns) — the two operands of an all-pairs coordinate difference.  Also: an `[a, 1]` array
  cast to `[a]`; a length-`b` vector laid as a `[1, b]` row and spread down an `[a, b]` matrix; and equality of
  indices of ranks 1 to 3 from equality of their coordinates.
-/
import proofs.«143894_j36653250904785_1_alg».proof.Proof.LibColumn
import Idealize.ShloMosaic.Lib.ValueLayout
import Idealize.ShloMosaic.Lib.ValueIdx
import Idealize.ShloMosaic.Lib.Pipeline.Value

noncomputable section

namespace Cert.LibPointColumns

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Coordinate `k` of point `p` of a `[1, a, 3]` block, cut out as a column and spread along the rows of `[a, b]`. -/
theorem rowPointCoord_apply {a b : ℕ} (P : (⟨3, ![1, a, 3]⟩ : Shape).Idx → α) (o : ℕ) (k : Fin 3) (hk : k.val = o)
    (h1 : (⟨3, ![1, a, 3]⟩ : Shape).ShapeCasts ⟨2, ![a, 3]⟩) (h2 : (⟨2, ![a, 3]⟩ : Shape).Slices ![0, o] ⟨2, ![a, 1]⟩)
    (h3 : (⟨2, ![a, 1]⟩ : Shape).Broadcasts ⟨2, ![a, b]⟩) (p : Fin a) (m : Fin b) :
    broadcastTo ⟨2, ![a, b]⟩ (extractStridedSlice ⟨2, ![a, 1]⟩ ![0, o] (shapeCast ⟨2, ![a, 3]⟩ P h1) h2) h3 (ix2 p m)
      = P (ix3 (0 : Fin 1) p k) := by
  rw [Cert.LibColumn.broadcastTo_a1_ab_apply, slice2_axis1_apply o _ h2 p (0 : Fin 1) k (by simp [hk]),
    shapeCast_1ab_ab_apply]

/-- Coordinate `k` of point `m` of a `[1, b, 3]` block, cut out as a column, laid as a row and spread down the
    columns of `[a, b]`. -/
theorem colPointCoord_apply {a b : ℕ} (P : (⟨3, ![1, b, 3]⟩ : Shape).Idx → α) (o : ℕ) (k : Fin 3) (hk : k.val = o)
    (h1 : (⟨3, ![1, b, 3]⟩ : Shape).ShapeCasts ⟨2, ![b, 3]⟩) (h2 : (⟨2, ![b, 3]⟩ : Shape).Slices ![0, o] ⟨2, ![b, 1]⟩)
    (h3 : (⟨2, ![b, 1]⟩ : Shape).ShapeCasts ⟨1, ![b]⟩) (h4 : (⟨1, ![b]⟩ : Shape).ShapeCasts ⟨2, ![1, b]⟩)
    (h5 : (⟨2, ![1, b]⟩ : Shape).Broadcasts ⟨2, ![a, b]⟩) (p : Fin a) (m : Fin b) :
    broadcastTo ⟨2, ![a, b]⟩ (shapeCast ⟨2, ![1, b]⟩ (shapeCast ⟨1, ![b]⟩
        (extractStridedSlice ⟨2, ![b, 1]⟩ ![0, o] (shapeCast ⟨2, ![b, 3]⟩ P h1) h2) h3) h4) h5 (ix2 p m)
      = P (ix3 (0 : Fin 1) m k) := by
  rw [broadcastTo_1b_ab_apply, shapeCast_a_1a_apply, shapeCast_a1_a_apply,
    slice2_axis1_apply o _ h2 m (0 : Fin 1) k (by simp [hk]), shapeCast_1ab_ab_apply]

/-- A length-`b` vector laid as a row and spread down the columns of `[a, b]`. -/
theorem rowVec_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) := by
  rw [broadcastTo_1b_ab_apply, shapeCast_a_1a_apply]

/-- Two indices of a rank-3 shape with equal coordinates are equal. -/
theorem idx3_ext {n0 n1 n2 : ℕ} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- Two indices of a rank-2 shape with equal coordinates are equal. -/
theorem idx2_ext {n0 n1 : ℕ} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

/-- Two indices of a rank-1 shape with equal coordinates are equal. -/
theorem idx1_ext {n0 : ℕ} (i j : (⟨1, ![n0]⟩ : Shape).Idx) (h0 : (i 0).val = (j 0).val) : i = j :=
  funext fun a => Fin.ext (by match a with | ⟨0, _⟩ => exact h0)

end Cert.LibPointColumns

end
-- ==== Proof.BlockInterp.lean ====
/-
  What the kernel body computes first, read entry by entry: for each of its 1024 query rows the 2048 shifted
  reciprocal squared distances to the batch's source points (the three coordinate columns cut out of the two point
  blocks and spread against each other), their row sums, the quotient, and the product of that weight matrix with the
  batch's source features — the interpolated features of the row.
-/
import proofs.«143894_j36653250904785_1_alg».proof.Proof.Gen.KernelIdeal.Skeleton
import proofs.«143894_j36653250904785_1_alg».proof.Proof.Spec
import proofs.«143894_j36653250904785_1_alg».proof.Proof.LibRowMax
import proofs.«143894_j36653250904785_1_alg».proof.Proof.LibColumn
import proofs.«143894_j36653250904785_1_alg».proof.Proof.LibPointColumns
import Idealize.ShloMosaic.Lib.ValueLayout
import Idealize.ShloMosaic.Lib.ValueIdx
import Idealize.ShloMosaic.Lib.Pipeline.Value
import Idealize.ShloMosaic.PureOps.Ideal.Laws

noncomputable section

namespace Cert.Upsample

open Idealize.ShloMosaic Idealize.ShloMosaic.ValueIdx Cert.KernelIdeal Cert.KernelIdeal.Gen Cert.LibPointColumns

/-- A matrix `R` of reciprocals divided by its row sums (kept as a column and spread back), times a feature block:
    the weight of source point `m` times its feature. -/
theorem weighted_apply (R : FVec Ideal ⟨2, ![1024, 2048]⟩ .f32) (P2 : (⟨3, ![1, 2048, 64]⟩ : Shape).Idx → EReal)
    (D : Fin 2048 → EReal) (p : Fin 1024) (hR : ∀ m, R (ix2 p m) = recip (D m)) (m : Fin 2048) (d : Fin 64)
    (hr : (⟨2, ![1024, 2048]⟩ : Shape).Reduces [1] ⟨1, ![1024]⟩) (hφ : FKind.Formats .f32)
    (hacc : (0x00000000#32 : BitVec 32) = FKind.add.neutral .f32 hφ)
    (hc : (⟨1, ![1024]⟩ : Shape).ShapeCasts ⟨2, ![1024, 1]⟩) (hb : (⟨2, ![1024, 1]⟩ : Shape).Broadcasts ⟨2, ![1024, 2048]⟩)
    (hs : (⟨3, ![1, 2048, 64]⟩ : Shape).ShapeCasts ⟨2, ![2048, 64]⟩) (hlt : FTy.bf16.bits < FTy.f32.bits) :
    truncf (F := Ideal) .bf16 (divf R (broadcastTo ⟨2, ![1024, 2048]⟩ (shapeCast ⟨2, ![1024, 1]⟩
        (multiReduction .add [1] ⟨1, ![1024]⟩ R 0x00000000#32 hr hφ hacc) hc) hb)) hlt (ix2 p m)
      * truncf (F := Ideal) .bf16 (shapeCast ⟨2, ![2048, 64]⟩ P2 hs) hlt (ix2 m d)
      = weight D m * P2 (ix3 (0 : Fin 1) m d) := by
  rw [truncf_apply, truncf_apply, divf_apply, Cert.LibColumn.broadcastTo_a1_ab_apply, Cert.LibColumn.shapeCast_a_a1_apply,
    Cert.LibColumn.sum_last_apply, shapeCast_1ab_ab_apply, hR]
  unfold weight
  simp only [hR]

/-- The interpolated features the body computes for its 1024 query rows: row `p`, feature `d`. -/
theorem interp_apply (P0 : Vec Ideal S1x1024x3 .f32) (P1 : Vec Ideal S1x2048x3 .f32) (P2 : Vec Ideal S1x2048x64 .f32)
    (p : Fin 1024) (d : Fin 64) :
    k0_pay2 (F := Ideal) P0 P1 P2 (ix2 p d)
      = interp (fun m => sqDist (fun k => P0 (ix3 (0 : Fin 1) p k)) (fun k => P1 (ix3 (0 : Fin 1) m k)))
          (fun m d => P2 (ix3 (0 : Fin 1) m d)) d := by
  unfold k0_pay2
  refine (Cert.LibRowMax.matmul_plain_apply _ none _ _ p d).trans ?_
  unfold interp
  refine Finset.sum_congr rfl fun m _ => ?_
  refine weighted_apply _ P2 _ p (fun m => ?_) m d _ _ _ _ _ _ _
  unfold recip sqDist
  simp only [divf_apply, addf_apply, mulf_apply, subf_apply, broadcast_apply]
  rw [rowPointCoord_apply P0 0 0 rfl, rowPointCoord_apply P0 1 1 rfl, rowPointCoord_apply P0 2 2 rfl,
    colPointCoord_apply P1 0 0 rfl, colPointCoord_apply P1 1 1 rfl, colPointCoord_apply P1 2 2 rfl]
  rfl

end Cert.Upsample

end
-- ==== Proof.LibRowsProduct.lean ====
/-
  A product of two matrices taken row against row: `[a, k] × [b, k] → [a, b]`, the LAST axis of each operand
  contracted (the left operand times the transpose of the right one, without the transpose being formed).

  At output `(i, j)` the contraction's sum of products is the sum over `e : Fin k` of `lhs (i, e) * rhs (j, e)`:
  row `i` of the left operand against row `j` of the right one. Stated on the extended reals, for the vector
  unit's product into a zero accumulator and for the host's product.
-/
import Idealize.ShloMosaic.Lib.ValueIdx
import Idealize.ShloMosaic.PureOps.Ideal.Laws

noncomputable section

namespace Cert.LibRowsProduct

open Idealize.ShloMosaic Idealize.ShloMosaic.ValueIdx

variable {a b k : ℕ}

/-- The dimension numbers of a row-against-row product `[a, k] × [b, k] → [a, b]`: no batch axis, the last axis of
    each operand contracted, the first axes kept in order. -/
abbrev rowsDims (a k b : ℕ)
    (wf : DotDims.WF ⟨2, ![a, k]⟩ ⟨2, ![b, k]⟩ ⟨2, ![a, b]⟩ [1] [1] [0] [0] [] []) :
    DotDims ⟨2, ![a, k]⟩ ⟨2, ![b, k]⟩ ⟨2, ![a, b]⟩ where
  lhsContracting := [1]
  rhsContracting := [1]
  lhsNonContracting := [0]
  rhsNonContracting := [0]
  lhsBatch := []
  rhsBatch := []
  wf := wf

/-- The left operand's index at output `(i, j)` and contraction coordinate `e` is `(i, e)`. -/
theorem rows_lhsIdx (wf : DotDims.WF ⟨2, ![a, k]⟩ ⟨2, ![b, k]⟩ ⟨2, ![a, b]⟩ [1] [1] [0] [0] [] [])
    (i : Fin a) (j : Fin b) (e : Fin k) :
    (rowsDims a k b wf).lhsIdx (ix2 i j) ((contrEquiv1 (rowsDims a k b wf) k rfl rfl).symm e) = ix2 i e := by
  funext ax
  apply Fin.ext
  match ax with
  | ⟨0, _⟩ => rfl
  | ⟨1, _⟩ =>
    exact ((rowsDims a k b wf).lhsIdx_val_of_single rfl (ix2 i j) _).trans
      (contrEquiv1_symm_val (rowsDims a k b wf) k rfl rfl e)

/-- The right operand's index at output `(i, j)` and contraction coordinate `e` is `(j, e)`. -/
theorem rows_rhsIdx (wf : DotDims.WF ⟨2, ![a, k]⟩ ⟨2, ![b, k]⟩ ⟨2, ![a, b]⟩ [1] [1] [0] [0] [] [])
    (i : Fin a) (j : Fin b) (e : Fin k) :
    (rowsDims a k b wf).rhsIdx (ix2 i j) ((contrEquiv1 (rowsDims a k b wf) k rfl rfl).symm e) = ix2 j e := by
  funext ax
  apply Fin.ext
  match ax with
  | ⟨0, _⟩ => rfl
  | ⟨1, _⟩ =>
    exact ((rowsDims a k b wf).rhsIdx_val_of_single rfl (ix2 i j) _).trans
      (contrEquiv1_symm_val (rowsDims a k b wf) k rfl rfl e)

/-- The contraction's sum of products, over the contracted coordinate. -/
theorem rows_sum (wf : DotDims.WF ⟨2, ![a, k]⟩ ⟨2, ![b, k]⟩ ⟨2, ![a, b]⟩ [1] [1] [0] [0] [] [])
    (lhs : (⟨2, ![a, k]⟩ : Shape).Idx → EReal) (rhs : (⟨2, ![b, k]⟩ : Shape).Idx → EReal) (i : Fin a) (j : Fin b) :
    ∑ kk : (rowsDims a k b wf).contr.Idx,
        lhs ((rowsDims a k b wf).lhsIdx (ix2 i j) kk) * rhs ((rowsDims a k b wf).rhsIdx (ix2 i j) kk)
      = ∑ e : Fin k, lhs (ix2 i e) * rhs (ix2 j e) := by
  rw [← Equiv.sum_comp (contrEquiv1 (rowsDims a k b wf) k rfl rfl).symm]
  refine Finset.sum_congr rfl fun e _ => ?_
  rw [rows_lhsIdx wf i j e, rows_rhsIdx wf i j e]

/-- The vector unit's row-against-row product into a zero accumulator, at `(i, j)`: the sum over `e` of
    `lhs (i, e) * rhs (j, e)`. -/
theorem matmul_rows_apply {φ₁ φ₂ : FTy} (wf : DotDims.WF ⟨2, ![a, k]⟩ ⟨2, ![b, k]⟩ ⟨2, ![a, b]⟩ [1] [1] [0] [0] [] [])
    (prec : Option ContractPrecision) (lhs : FVec Ideal ⟨2, ![a, k]⟩ φ₁) (rhs : FVec Ideal ⟨2, ![b, k]⟩ φ₂)
    (i : Fin a) (j : Fin b) :
    FloatOps.matmul (rowsDims a k b wf) prec lhs rhs (constant ⟨2, ![a, b]⟩ .f32 0x00000000#32) (ix2 i j)
      = ∑ e : Fin k, lhs (ix2 i e) * rhs (ix2 j e) :=
  (Ideal.matmul_constant_zero_apply (rowsDims a k b wf) prec lhs rhs (ix2 i j)).trans (rows_sum wf lhs rhs i j)

/-- The host's row-against-row product, at `(i, j)`: the same sum. -/
theorem dotGeneral_rows_apply {φ₁ φ₂ : FTy} (wf : DotDims.WF ⟨2, ![a, k]⟩ ⟨2, ![b, k]⟩ ⟨2, ![a, b]⟩ [1] [1] [0] [0] [] [])
    (prec : Option ContractPrecision) (sched : HostSchedule) (lhs : FVec Ideal ⟨2, ![a, k]⟩ φ₁)
    (rhs : FVec Ideal ⟨2, ![b, k]⟩ φ₂) (i : Fin a) (j : Fin b) :
    FloatOps.dotGeneral (rowsDims a k b wf) prec sched lhs rhs (ix2 i j)
      = ∑ e : Fin k, lhs (ix2 i e) * rhs (ix2 j e) :=
  (Ideal.dotGeneral_apply (rowsDims a k b wf) prec sched lhs rhs (ix2 i j)).trans (rows_sum wf lhs rhs i j)

end Cert.LibRowsProduct

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.BlockLayers.lean ====
/-
  The rest of the kernel body, read entry by entry: the row's own features joined with the interpolated ones, the
  hidden layer (product against the rows of W₁, bias, normalisation, clamp at zero), the product against the rows of
  W₂ with its bias, and the last normalisation — the block the body stores is, row by row, `outRow` of the row's data.
-/
import proofs.«143894_j36653250904785_1_alg».proof.Proof.Gen.KernelIdeal.Value
import proofs.«143894_j36653250904785_1_alg».proof.Proof.BlockInterp
import proofs.«143894_j36653250904785_1_alg».proof.Proof.LibRowsProduct
import proofs.«143894_j36653250904785_1_alg».proof.Proof.LibStack

noncomputable section

namespace Cert.Upsample

open Idealize.ShloMosaic Idealize.ShloMosaic.ValueIdx Cert.KernelIdeal Cert.KernelIdeal.Gen Cert.LibPointColumns

/-- The normalisation of an affine layer's output `Y + bias`, every parameter a row vector spread down the columns. -/
theorem normalised_apply {a b : ℕ} (Y : FVec Ideal ⟨2, ![a, b]⟩ .f32)
    (bias gamma beta mean var : FVec Ideal ⟨1, ![b]⟩ .f32)
    (hc : (⟨1, ![b]⟩ : Shape).ShapeCasts ⟨2, ![1, b]⟩) (hb : (⟨2, ![1, b]⟩ : Shape).Broadcasts ⟨2, ![a, b]⟩)
    (p : Fin a) (c : Fin b) (y : EReal) (hY : Y (ix2 p c) = y) :
    addf (mulf (mulf (subf (addf Y (broadcastTo ⟨2, ![a, b]⟩ (shapeCast ⟨2, ![1, b]⟩ bias hc) hb))
        (broadcastTo ⟨2, ![a, b]⟩ (shapeCast ⟨2, ![1, b]⟩ mean hc) hb))
        (broadcastTo ⟨2, ![a, b]⟩ (rsqrt (addf (shapeCast ⟨2, ![1, b]⟩ var hc)
          (broadcast ⟨2, ![1, b]⟩ (Scalar.ofBits (F := Ideal) .f32 0x3727C5AC#32)))) hb))
        (broadcastTo ⟨2, ![a, b]⟩ (shapeCast ⟨2, ![1, b]⟩ gamma hc) hb))
        (broadcastTo ⟨2, ![a, b]⟩ (shapeCast ⟨2, ![1, b]⟩ beta hc) hb) (ix2 p c)
      = bnorm (y + bias (ix1 c)) (mean (ix1 c)) (var (ix1 c)) (gamma (ix1 c)) (beta (ix1 c)) := by
  rw [addf_apply, mulf_apply, mulf_apply, subf_apply, addf_apply, rowVec_apply, rowVec_apply, rowVec_apply, rowVec_apply,
    broadcastTo_1b_ab_apply, hY]
  show ((y + bias (ix1 c) - mean (ix1 c))
      * Ideal.rsqrt (shapeCast ⟨2, ![1, b]⟩ var hc (ix2 (0 : Fin 1) c) + Ideal.ofBits .f32 0x3727C5AC#32))
      * gamma (ix1 c) + beta (ix1 c) = _
  rw [shapeCast_a_1a_apply]
  rfl

/-- The body's second stretch: from the interpolated features `X` of its rows to the output layer's affine part. -/
theorem affineOut_apply (X : FVec Ideal S1024x64 .f32) (P3 : Vec Ideal S1x1024x64 .f32) (P4 : Vec Ideal S128x128 .f32)
    (P5 P6 P7 P8 P9 : Vec Ideal S128 .f32) (P10 : Vec Ideal S64x128 .f32) (P11 : Vec Ideal S64 .f32)
    (p : Fin 1024) (o : Fin 64) :
    k0_pay3 (F := Ideal) X P3 P4 P5 P6 P7 P8 P9 P10 P11 (ix2 p o)
      = (∑ c, hidden (joined (fun c => P3 (ix3 (0 : Fin 1) p c)) (fun d => X (ix2 p d))) P4 P5 P6 P7 P8 P9 c * P10 (ix2 o c))
          + P11 (ix1 o) := by
  unfold k0_pay3
  refine (addf_apply _ _ _).trans ?_
  refine congrArg₂ (· + ·) ?_ (rowVec_apply P11 _ _ p o)
  refine (Cert.LibRowsProduct.matmul_rows_apply _ none _ _ p o).trans ?_
  refine Finset.sum_congr rfl fun c _ => ?_
  rw [truncf_apply, truncf_apply, maximumf_apply, broadcast_apply]
  refine congrArg (· * _) ?_
  unfold hidden
  refine congrArg (max · _) ?_
  refine normalised_apply _ P5 P6 P7 P8 P9 _ _ p c _ ?_
  refine (Cert.LibRowsProduct.matmul_rows_apply _ none _ _ p c).trans ?_
  refine Finset.sum_congr rfl fun k _ => ?_
  rw [truncf_apply, truncf_apply]
  refine congrArg (· * _) ?_
  unfold joined
  by_cases hk : k.val < 64
  · rw [dif_pos hk]
    exact (Cert.LibStack.beside_left _ _ _ p ⟨k.val, hk⟩ k rfl).trans (shapeCast_1ab_ab_apply _ _ _ _)
  · rw [dif_neg hk]
    exact Cert.LibStack.beside_right _ _ _ p ⟨k.val - 64, by have := k.isLt; omega⟩ k (by show k.val = k.val - 64 + 64; omega)

/-- THE BLOCK THE BODY STORES, row `p`, feature `o`: `outRow` of the row's squared distances to the batch's source
    points, the batch's source features, the row's own features and the layers' parameters. -/
theorem block_apply (P0 : Vec Ideal S1x1024x3 .f32) (P1 : Vec Ideal S1x2048x3 .f32) (P2 : Vec Ideal S1x2048x64 .f32)
    (P3 : Vec Ideal S1x1024x64 .f32) (P4 : Vec Ideal S128x128 .f32) (P5 P6 P7 P8 P9 : Vec Ideal S128 .f32)
    (P10 : Vec Ideal S64x128 .f32) (P11 P12 P13 P14 P15 : Vec Ideal S64 .f32) (p : Fin 1024) (o : Fin 64) :
    Cert.KernelIdeal.Value.E16 (F := Ideal) P0 P1 P2 P3 P4 P5 P6 P7 P8 P9 P10 P11 P12 P13 P14 P15 (ix3 (0 : Fin 1) p o)
      = outRow (fun m => sqDist (fun k => P0 (ix3 (0 : Fin 1) p k)) (fun k => P1 (ix3 (0 : Fin 1) m k)))
          (fun m d => P2 (ix3 (0 : Fin 1) m d)) (fun c => P3 (ix3 (0 : Fin 1) p c))
          P4 P5 P6 P7 P8 P9 P10 P11 P14 P15 P12 P13 o := by
  have e0 : Cert.KernelIdeal.Value.ix16_0 (ix3 (0 : Fin 1) p o) = ix2 p o :=
    funext fun a => Fin.ext (by match a with | ⟨0, _⟩ => rfl | ⟨1, _⟩ => rfl)
  have e1 : Cert.KernelIdeal.Value.ix16_1 (ix3 (0 : Fin 1) p o) = ix1 o :=
    funext fun a => Fin.ext (by match a with | ⟨0, _⟩ => rfl)
  have e2 : Cert.KernelIdeal.Value.ix16_2 (ix3 (0 : Fin 1) p o) = ix1 o :=
    funext fun a => Fin.ext (by match a with | ⟨0, _⟩ => rfl)
  have e3 : Cert.KernelIdeal.Value.ix16_3 (ix3 (0 : Fin 1) p o) = ix1 o :=
    funext fun a => Fin.ext (by match a with | ⟨0, _⟩ => rfl)
  have e4 : Cert.KernelIdeal.Value.ix16_4 (ix3 (0 : Fin 1) p o) = ix1 o :=
    funext fun a => Fin.ext (by match a with | ⟨0, _⟩ => rfl)
  have hi : (fun d => k0_pay2 (F := Ideal) P0 P1 P2 (ix2 p d))
      = interp (fun m => sqDist (fun k => P0 (ix3 (0 : Fin 1) p k)) (fun k => P1 (ix3 (0 : Fin 1) m k)))
          (fun m d => P2 (ix3 (0 : Fin 1) m d)) := funext fun d => interp_apply P0 P1 P2 p d
  show ((k0_pay3 (F := Ideal) (k0_pay2 P0 P1 P2) P3 P4 P5 P6 P7 P8 P9 P10 P11 (Cert.KernelIdeal.Value.ix16_0 (ix3 (0 : Fin 1) p o))
      - P12 (Cert.KernelIdeal.Value.ix16_1 (ix3 (0 : Fin 1) p o)))
      * Ideal.rsqrt (P13 (Cert.KernelIdeal.Value.ix16_2 (ix3 (0 : Fin 1) p o)) + Ideal.ofBits .f32 0x3727C5AC#32))
      * P14 (Cert.KernelIdeal.Value.ix16_3 (ix3 (0 : Fin 1) p o)) + P15 (Cert.KernelIdeal.Value.ix16_4 (ix3 (0 : Fin 1) p o)) = _
  rw [e0, e1, e2, e3, e4, affineOut_apply, hi]
  rfl

end Cert.Upsample

end
-- ==== Proof.Blocks.lean ====
/-
  From blocks to the array.  Grid point `t = (b, j)` stages rows `1024·j … 1024·j + 1023` of batch `b` of the query
  points and of their own features, the whole of batch `b` of the source points and of their features, and every
  parameter array whole; it writes back rows `1024·j …` of batch `b` of the result.  So what it writes is that block of
  `result sqDist` of the argument arrays, the sixty-four blocks tile the result, and the result array ends as
  `result sqDist` of the arguments.
-/
import proofs.«143894_j36653250904785_1_alg».proof.Proof.Gen.KernelIdeal.Value
import proofs.«143894_j36653250904785_1_alg».proof.Proof.Gen.KernelIdeal.Points
import proofs.«143894_j36653250904785_1_alg».proof.Proof.BlockLayers

noncomputable section

namespace Cert.Upsample

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array as one function of the argument arrays as the region finds them. -/
abbrev G (c : Dev nD) : S4x16384x64.Idx → EReal :=
  result sqDist (V m c main_arg0) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13) (V m c main_arg14) (V m c main_arg15)

/-- The printed index maps, decided over the 64 grid points: the query-point and own-feature windows move with the
    output window on the batch and row-block axes, the source windows on the batch axis only, the parameter windows
    not at all; and the output's block indices stay in their ranges. -/
theorem idx_facts : ∀ t : Fin cfg0.N,
    win0_0.index t (0 : Fin 3) = win0_16.index t (0 : Fin 3) ∧ win0_0.index t (1 : Fin 3) = win0_16.index t (1 : Fin 3)
    ∧ win0_0.index t (2 : Fin 3) = 0
    ∧ win0_1.index t (0 : Fin 3) = win0_16.index t (0 : Fin 3) ∧ win0_1.index t (1 : Fin 3) = 0 ∧ win0_1.index t (2 : Fin 3) = 0
    ∧ win0_2.index t (0 : Fin 3) = win0_16.index t (0 : Fin 3) ∧ win0_2.index t (1 : Fin 3) = 0 ∧ win0_2.index t (2 : Fin 3) = 0
    ∧ win0_3.index t (0 : Fin 3) = win0_16.index t (0 : Fin 3) ∧ win0_3.index t (1 : Fin 3) = win0_16.index t (1 : Fin 3)
    ∧ win0_3.index t (2 : Fin 3) = 0
    ∧ win0_16.index t (2 : Fin 3) = 0 ∧ win0_16.index t (0 : Fin 3) < 4 ∧ win0_16.index t (1 : Fin 3) < 16
    ∧ win0_4.index t (0 : Fin 2) = 0 ∧ win0_4.index t (1 : Fin 2) = 0
    ∧ win0_5.index t (0 : Fin 1) = 0
    ∧ win0_6.index t (0 : Fin 1) = 0
    ∧ win0_7.index t (0 : Fin 1) = 0
    ∧ win0_8.index t (0 : Fin 1) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 1) = 0
    ∧ win0_13.index t (0 : Fin 1) = 0
    ∧ win0_14.index t (0 : Fin 1) = 0
    ∧ win0_15.index t (0 : Fin 1) = 0 :=
  (by decide +kernel : ∀ t : Fin grid0.N, _)

/-- Every block of the result is some point's. -/
theorem idx_onto : ∀ (q0 : Fin 4) (q1 : Fin 16), ∃ t : Fin cfg0.N, win0_16.index t = ![q0.val, q1.val, 0] :=
  (by decide +kernel : ∀ (q0 : Fin 4) (q1 : Fin 16), ∃ t : Fin grid0.N, win0_16.index t = ![q0.val, q1.val, 0])

/-- Window 4's block is its whole array at every point. -/
theorem whole4 (c : Dev nD) (t : Fin cfg0.N) : View.ld (iblk m c 4 t) r0_4 = V m c main_arg4 := by
  rw [View.ld_unit_zero (S := S128x128) hz2]
  funext j
  show V m c main_arg4 (((cfg0.win 4).blk t).view.emb j) = V m c main_arg4 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- Window 5's block is its whole array at every point. -/
theorem whole5 (c : Dev nD) (t : Fin cfg0.N) : View.ld (iblk m c 5 t) r0_5 = V m c main_arg5 := by
  rw [View.ld_unit_zero (S := S128) hz1]
  funext j
  show V m c main_arg5 (((cfg0.win 5).blk t).view.emb j) = V m c main_arg5 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_5.index t (0 : Fin 1) * 128 + 1 * (j 0).val = (j 0).val; omega

/-- Window 6's block is its whole array at every point. -/
theorem whole6 (c : Dev nD) (t : Fin cfg0.N) : View.ld (iblk m c 6 t) r0_5 = V m c main_arg6 := by
  rw [View.ld_unit_zero (S := S128) hz1]
  funext j
  show V m c main_arg6 (((cfg0.win 6).blk t).view.emb j) = V m c main_arg6 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_6.index t (0 : Fin 1) * 128 + 1 * (j 0).val = (j 0).val; omega

/-- Window 7's block is its whole array at every point. -/
theorem whole7 (c : Dev nD) (t : Fin cfg0.N) : View.ld (iblk m c 7 t) r0_5 = V m c main_arg7 := by
  rw [View.ld_unit_zero (S := S128) hz1]
  funext j
  show V m c main_arg7 (((cfg0.win 7).blk t).view.emb j) = V m c main_arg7 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_7.index t (0 : Fin 1) * 128 + 1 * (j 0).val = (j 0).val; omega

/-- Window 8's block is its whole array at every point. -/
theorem whole8 (c : Dev nD) (t : Fin cfg0.N) : View.ld (iblk m c 8 t) r0_5 = V m c main_arg8 := by
  rw [View.ld_unit_zero (S := S128) hz1]
  funext j
  show V m c main_arg8 (((cfg0.win 8).blk t).view.emb j) = V m c main_arg8 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_8.index t (0 : Fin 1) * 128 + 1 * (j 0).val = (j 0).val; omega

/-- Window 9's block is its whole array at every point. -/
theorem whole9 (c : Dev nD) (t : Fin cfg0.N) : View.ld (iblk m c 9 t) r0_5 = V m c main_arg9 := by
  rw [View.ld_unit_zero (S := S128) hz1]
  funext j
  show V m c main_arg9 (((cfg0.win 9).blk t).view.emb j) = V m c main_arg9 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_9.index t (0 : Fin 1) * 128 + 1 * (j 0).val = (j 0).val; omega

/-- Window 10's block is its whole array at every point. -/
theorem whole10 (c : Dev nD) (t : Fin cfg0.N) : View.ld (iblk m c 10 t) r0_6 = V m c main_arg10 := by
  rw [View.ld_unit_zero (S := S64x128) hz2]
  funext j
  show V m c main_arg10 (((cfg0.win 10).blk t).view.emb j) = V m c main_arg10 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_10.index t (0 : Fin 2) * 64 + 1 * (j 0).val = (j 0).val; omega
  | ⟨1, _⟩ => show win0_10.index t (1 : Fin 2) * 128 + 1 * (j 1).val = (j 1).val; omega

/-- Window 11's block is its whole array at every point. -/
theorem whole11 (c : Dev nD) (t : Fin cfg0.N) : View.ld (iblk m c 11 t) r0_7 = V m c main_arg11 := by
  rw [View.ld_unit_zero (S := S64) hz1]
  funext j
  show V m c main_arg11 (((cfg0.win 11).blk t).view.emb j) = V m c main_arg11 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_11.index t (0 : Fin 1) * 64 + 1 * (j 0).val = (j 0).val; omega

/-- Window 12's block is its whole array at every point. -/
theorem whole12 (c : Dev nD) (t : Fin cfg0.N) : View.ld (iblk m c 12 t) r0_7 = V m c main_arg12 := by
  rw [View.ld_unit_zero (S := S64) hz1]
  funext j
  show V m c main_arg12 (((cfg0.win 12).blk t).view.emb j) = V m c main_arg12 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_12.index t (0 : Fin 1) * 64 + 1 * (j 0).val = (j 0).val; omega

/-- Window 13's block is its whole array at every point. -/
theorem whole13 (c : Dev nD) (t : Fin cfg0.N) : View.ld (iblk m c 13 t) r0_7 = V m c main_arg13 := by
  rw [View.ld_unit_zero (S := S64) hz1]
  funext j
  show V m c main_arg13 (((cfg0.win 13).blk t).view.emb j) = V m c main_arg13 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_13.index t (0 : Fin 1) * 64 + 1 * (j 0).val = (j 0).val; omega

/-- Window 14's block is its whole array at every point. -/
theorem whole14 (c : Dev nD) (t : Fin cfg0.N) : View.ld (iblk m c 14 t) r0_7 = V m c main_arg14 := by
  rw [View.ld_unit_zero (S := S64) hz1]
  funext j
  show V m c main_arg14 (((cfg0.win 14).blk t).view.emb j) = V m c main_arg14 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_14.index t (0 : Fin 1) * 64 + 1 * (j 0).val = (j 0).val; omega

/-- Window 15's block is its whole array at every point. -/
theorem whole15 (c : Dev nD) (t : Fin cfg0.N) : View.ld (iblk m c 15 t) r0_7 = V m c main_arg15 := by
  rw [View.ld_unit_zero (S := S64) hz1]
  funext j
  show V m c main_arg15 (((cfg0.win 15).blk t).view.emb j) = V m c main_arg15 j
  refine congrArg _ (funext fun a => Fin.ext ?_)
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  match a with
  | ⟨0, _⟩ => show win0_15.index t (0 : Fin 1) * 64 + 1 * (j 0).val = (j 0).val; omega

/-- An index of the result is in point `t`'s block iff each coordinate is in the block's range on its axis. -/
theorem mem_blk (t : Fin cfg0.N) (i : S4x16384x64.Idx) :
    i ∈ ((cfg0.win 16).blk t).view.set ↔ ∀ a : Fin 3, win0_16.index t a * S1x1024x64.size a ≤ (i a).val
      ∧ (i a).val < win0_16.index t a * S1x1024x64.size a + S1x1024x64.size a := by
  show i ∈ ((View.whole main_v0).slice (win0_16.rect t)).set ↔ _
  rw [View.set_slice_whole, Rect.mem_set_unit]
  exact Iff.rfl

/-- The sixty-four blocks cover the result: row `r` of batch `b` is in the block of the point with index `(b, r / 1024)`. -/
theorem cover (i : S4x16384x64.Idx) :
    ∃ t : Fin cfg0.N, (cfg0.win 16).flush t = true ∧ i ∈ ((cfg0.win 16).blk t).view.set := by
  have hi0 : (i 0).val < 4 := (i 0).isLt
  have hi1 : (i 1).val < 16384 := (i 1).isLt
  have hi2 : (i 2).val < 64 := (i 2).isLt
  obtain ⟨t, ht⟩ := idx_onto ⟨(i 0).val, hi0⟩ ⟨(i 1).val / 1024, by omega⟩
  have q0 : win0_16.index t (0 : Fin 3) = (i 0).val := congrFun ht 0
  have q1 : win0_16.index t (1 : Fin 3) = (i 1).val / 1024 := congrFun ht 1
  have q2 : win0_16.index t (2 : Fin 3) = 0 := congrFun ht 2
  refine ⟨t, flush0_16 t, ?_⟩
  rw [mem_blk]
  intro a
  match a with
  | ⟨0, _⟩ => show win0_16.index t (0 : Fin 3) * 1 ≤ (i 0).val ∧ (i 0).val < win0_16.index t (0 : Fin 3) * 1 + 1; omega
  | ⟨1, _⟩ => show win0_16.index t (1 : Fin 3) * 1024 ≤ (i 1).val ∧ (i 1).val < win0_16.index t (1 : Fin 3) * 1024 + 1024; omega
  | ⟨2, _⟩ => show win0_16.index t (2 : Fin 3) * 64 ≤ (i 2).val ∧ (i 2).val < win0_16.index t (2 : Fin 3) * 64 + 64; omega

/-- WHAT POINT `t` WRITES BACK is block `t` of `G`. -/
theorem flushed_eq (c : Dev nD) (t : Fin cfg0.N) :
    (dats m 0 c).flushed 16 t = ((cfg0.win 16).blk t).view.read (Elt Ideal) (G m c) := by
  rw [Cert.KernelIdeal.Value.flushed16]
  unfold out0_16
  funext y
  obtain ⟨u, p, o, rfl⟩ : ∃ (u : Fin 1) (p : Fin 1024) (o : Fin 64), y = ix3 u p o := ⟨y 0, y 1, y 2, eq_ix3 y⟩
  obtain rfl : u = 0 := Subsingleton.elim _ _
  refine (Cert.KernelIdeal.Value.canon16_eq (F := Ideal)
      (View.ld (iblk m c 0 t) r0_0)
      (View.ld (iblk m c 1 t) r0_1)
      (View.ld (iblk m c 2 t) r0_2)
      (View.ld (iblk m c 3 t) r0_3)
      (View.ld (iblk m c 4 t) r0_4)
      (View.ld (iblk m c 5 t) r0_5)
      (View.ld (iblk m c 6 t) r0_5)
      (View.ld (iblk m c 7 t) r0_5)
      (View.ld (iblk m c 8 t) r0_5)
      (View.ld (iblk m c 9 t) r0_5)
      (View.ld (iblk m c 10 t) r0_6)
      (View.ld (iblk m c 11 t) r0_7)
      (View.ld (iblk m c 14 t) r0_7)
      (View.ld (iblk m c 15 t) r0_7)
      (View.ld (iblk m c 12 t) r0_7)
      (View.ld (iblk m c 13 t) r0_7)
      (ix3 (0 : Fin 1) p o)).trans ?_
  rw [block_apply, whole4, whole5, whole6, whole7, whole8, whole9, whole10, whole11, whole12, whole13, whole14, whole15]
  obtain ⟨q00, q01, q02, s0, s1, s2, f0, f1, f2, u0, u1, u2, o2, o0, o1, w4_0, w4_1, w5_0, w6_0, w7_0, w8_0, w9_0, w10_0, w10_1, w11_0, w12_0, w13_0, w14_0, w15_0⟩ := idx_facts t
  have hI0 : ((((cfg0.win 16).blk t).view.emb (ix3 (0 : Fin 1) p o)) 0).val = win0_16.index t (0 : Fin 3) := by
    show win0_16.index t (0 : Fin 3) * 1 + 1 * 0 = _; omega
  have hI1 : ((((cfg0.win 16).blk t).view.emb (ix3 (0 : Fin 1) p o)) 1).val = win0_16.index t (1 : Fin 3) * 1024 + p.val := by
    show win0_16.index t (1 : Fin 3) * 1024 + 1 * p.val = _; omega
  have hI2 : (((cfg0.win 16).blk t).view.emb (ix3 (0 : Fin 1) p o)) 2 = o := by
    apply Fin.ext; show win0_16.index t (2 : Fin 3) * 64 + 1 * o.val = _; omega
  have hq : ∀ k : Fin 3, View.ld (iblk m c 0 t) r0_0 (ix3 (0 : Fin 1) p k)
      = V m c main_arg1 (ix3 ((((cfg0.win 16).blk t).view.emb (ix3 (0 : Fin 1) p o)) 0)
          ((((cfg0.win 16).blk t).view.emb (ix3 (0 : Fin 1) p o)) 1) k) := by
    intro k
    rw [View.ld_unit_zero (S := S1x1024x3) hz3]
    show V m c main_arg1 (((cfg0.win 0).blk t).view.emb (ix3 (0 : Fin 1) p k)) = _
    refine congrArg _ (funext fun a => Fin.ext ?_)
    match a with
    | ⟨0, _⟩ => show win0_0.index t (0 : Fin 3) * 1 + 1 * 0 = _; rw [hI0]; omega
    | ⟨1, _⟩ => show win0_0.index t (1 : Fin 3) * 1024 + 1 * p.val = _; rw [hI1]; omega
    | ⟨2, _⟩ => show win0_0.index t (2 : Fin 3) * 3 + 1 * k.val = k.val; omega
  have hs : ∀ (m' : Fin 2048) (k : Fin 3), View.ld (iblk m c 1 t) r0_1 (ix3 (0 : Fin 1) m' k)
      = V m c main_arg0 (ix3 ((((cfg0.win 16).blk t).view.emb (ix3 (0 : Fin 1) p o)) 0) m' k) := by
    intro m' k
    rw [View.ld_unit_zero (S := S1x2048x3) hz3]
    show V m c main_arg0 (((cfg0.win 1).blk t).view.emb (ix3 (0 : Fin 1) m' k)) = _
    refine congrArg _ (funext fun a => Fin.ext ?_)
    match a with
    | ⟨0, _⟩ => show win0_1.index t (0 : Fin 3) * 1 + 1 * 0 = _; rw [hI0]; omega
    | ⟨1, _⟩ => show win0_1.index t (1 : Fin 3) * 2048 + 1 * m'.val = m'.val; omega
    | ⟨2, _⟩ => show win0_1.index t (2 : Fin 3) * 3 + 1 * k.val = k.val; omega
  have hf : ∀ (m' : Fin 2048) (d : Fin 64), View.ld (iblk m c 2 t) r0_2 (ix3 (0 : Fin 1) m' d)
      = V m c main_arg2 (ix3 ((((cfg0.win 16).blk t).view.emb (ix3 (0 : Fin 1) p o)) 0) m' d) := by
    intro m' d
    rw [View.ld_unit_zero (S := S1x2048x64) hz3]
    show V m c main_arg2 (((cfg0.win 2).blk t).view.emb (ix3 (0 : Fin 1) m' d)) = _
    refine congrArg _ (funext fun a => Fin.ext ?_)
    match a with
    | ⟨0, _⟩ => show win0_2.index t (0 : Fin 3) * 1 + 1 * 0 = _; rw [hI0]; omega
    | ⟨1, _⟩ => show win0_2.index t (1 : Fin 3) * 2048 + 1 * m'.val = m'.val; omega
    | ⟨2, _⟩ => show win0_2.index t (2 : Fin 3) * 64 + 1 * d.val = d.val; omega
  have hu : ∀ c' : Fin 64, View.ld (iblk m c 3 t) r0_3 (ix3 (0 : Fin 1) p c')
      = V m c main_arg3 (ix3 ((((cfg0.win 16).blk t).view.emb (ix3 (0 : Fin 1) p o)) 0)
          ((((cfg0.win 16).blk t).view.emb (ix3 (0 : Fin 1) p o)) 1) c') := by
    intro c'
    rw [View.ld_unit_zero (S := S1x1024x64) hz3]
    show V m c main_arg3 (((cfg0.win 3).blk t).view.emb (ix3 (0 : Fin 1) p c')) = _
    refine congrArg _ (funext fun a => Fin.ext ?_)
    match a with
    | ⟨0, _⟩ => show win0_3.index t (0 : Fin 3) * 1 + 1 * 0 = _; rw [hI0]; omega
    | ⟨1, _⟩ => show win0_3.index t (1 : Fin 3) * 1024 + 1 * p.val = _; rw [hI1]; omega
    | ⟨2, _⟩ => show win0_3.index t (2 : Fin 3) * 64 + 1 * c'.val = c'.val; omega
  simp only [hq, hs, hf, hu]
  show _ = result sqDist (V m c main_arg0) (V m c main_arg1) (V m c main_arg2) (V m c main_arg3) (V m c main_arg4)
    (V m c main_arg5) (V m c main_arg6) (V m c main_arg7) (V m c main_arg8) (V m c main_arg9) (V m c main_arg10)
    (V m c main_arg11) (V m c main_arg12) (V m c main_arg13) (V m c main_arg14) (V m c main_arg15)
    (((cfg0.win 16).blk t).view.emb (ix3 (0 : Fin 1) p o))
  unfold result
  rw [hI2]

/-- THE RESULT ARRAY after the run is `G`: every index is in some point's block. -/
theorem final (c : Dev nD) : (dats m 0 c).arrAt 16 cfg0.N = G m c :=
  (dats m 0 c).arrAt_eq_of_cover 16 (G m c) (fun t _ => flushed_eq m c t) cover

/-- The kernel's run, read: the result array ends as `result sqDist` of the argument arrays, the arguments unchanged. -/
theorem kernel_run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Cert.KernelIdeal.Value.run_blocks m ρ)

end Cert.Upsample

end
-- ==== Proof.RefRead.lean ====
/-
  The reference program read entry by entry, stage by stage: the expanded squared distance of a query point and a
  source point, its shifted reciprocal, the weights (divided by their sum over the source points), the interpolated
  features, the row of 128 joined features, the hidden layer and the output layer — the result array is `result` with
  the distance in its expanded spelling.
-/
import proofs.«143894_j36653250904785_1_alg».proof.Proof.Gen.ReferenceIdeal.Read
import proofs.«143894_j36653250904785_1_alg».proof.Proof.Spec
import proofs.«143894_j36653250904785_1_alg».proof.Proof.LibPointColumns
import Idealize.ShloMosaic.Lib.ValueIdx
import Idealize.ShloMosaic.Lib.Pipeline.Value
import Idealize.ShloMosaic.PureOps.Ideal.Laws

noncomputable section

namespace Cert.Upsample

open Idealize.ShloMosaic Idealize.ShloMosaic.ValueIdx Cert.ReferenceIdeal Cert.ReferenceIdeal.Read Cert.LibPointColumns

variable (x0 : (⟨S4x2048x3, .f32⟩ : BufTy).Contents (Elt Ideal)) (x1 : (⟨S4x16384x3, .f32⟩ : BufTy).Contents (Elt Ideal))
  (x2 : (⟨S4x2048x64, .f32⟩ : BufTy).Contents (Elt Ideal)) (x3 : (⟨S4x16384x64, .f32⟩ : BufTy).Contents (Elt Ideal))
  (x4 : (⟨S128x128, .f32⟩ : BufTy).Contents (Elt Ideal)) (x5 x6 x7 x8 x9 : (⟨S128, .f32⟩ : BufTy).Contents (Elt Ideal))
  (x10 : (⟨S64x128, .f32⟩ : BufTy).Contents (Elt Ideal)) (x11 x12 x13 x14 x15 : (⟨S64, .f32⟩ : BufTy).Contents (Elt Ideal))

/-- The reference's squared distance of query point `(b, n)` and source point `(b, m)`, in the expanded spelling. -/
theorem refDist (b : Fin 4) (n : Fin 16384) (m : Fin 2048) :
    val_main_v12 (F := Ideal) x0 x1 (ix3 b n m) = sqDistExp (fun k => x1 (ix3 b n k)) (fun k => x0 (ix3 b m k)) := by
  rw [val_main_v12_apply, val_main_v8_apply, val_main_v11_apply, val_main_v6_apply, val_main_v2_apply, val_main_v1_apply,
    val_main_v7_apply, val_main_v5_apply, val_main_v4_apply, val_main_v9_apply, val_main_v10_apply]
  simp only [val_main_cst_apply, val_main_cst_0_apply, val_main_cst_1_apply, val_main_v0_apply, val_main_v3_apply,
    Ideal.ofBits_def, Ideal.addf_def, Ideal.subf_def, Ideal.mulf_def, Ideal.ofBits_zero_f32, zero_add]
  unfold sqDistExp
  refine congrArg₂ (· - ·) (congrArg₂ (· + ·) (Finset.sum_congr rfl fun k _ => ?_) (Finset.sum_congr rfl fun k _ => ?_))
    (congrArg (_ * ·) (Finset.sum_congr rfl fun k _ => ?_))
  · exact congrArg₂ (· * ·) (congrArg x1 (idx3_ext _ _ rfl rfl rfl)) (congrArg x1 (idx3_ext _ _ rfl rfl rfl))
  · exact congrArg₂ (· * ·) (congrArg x0 (idx3_ext _ _ rfl rfl rfl)) (congrArg x0 (idx3_ext _ _ rfl rfl rfl))
  · exact congrArg₂ (· * ·) (congrArg x1 (idx3_ext _ _ rfl rfl rfl)) (congrArg x0 (idx3_ext _ _ rfl rfl rfl))

/-- The row's squared distances to the batch's source points, as the reference spells them. -/
abbrev refD (b : Fin 4) (n : Fin 16384) : Fin 2048 → EReal :=
  fun m => sqDistExp (fun k => x1 (ix3 b n k)) (fun k => x0 (ix3 b m k))

/-- Its shifted reciprocal. -/
theorem refRecip (b : Fin 4) (n : Fin 16384) (m : Fin 2048) :
    val_main_v16 (F := Ideal) x0 x1 (ix3 b n m) = recip (refD x0 x1 b n m) := by
  rw [val_main_v16_apply, val_main_v15_apply, val_main_cst_3_apply, val_main_v14_apply, refDist, val_main_v13_apply,
    val_main_cst_2_apply]
  rfl

/-- The weight of source point `m` for query point `(b, n)`. -/
theorem refWeight (b : Fin 4) (n : Fin 16384) (m : Fin 2048) :
    val_main_v20 (F := Ideal) x0 x1 (ix3 b n m) = weight (refD x0 x1 b n) m := by
  rw [val_main_v20_apply, val_main_v19_apply, val_main_v18_apply, val_main_v17_apply, refRecip, val_main_cst_4_apply]
  simp only [Ideal.ofBits_def, Ideal.hostDivf_def, Ideal.ofBits_zero_f32, zero_add]
  unfold weight
  have hs : ∑ k : Fin 2048, val_main_v16 (F := Ideal) x0 x1 (idx_main_v17 (idx_main_v18 (idx_main_v19 (ix3 b n m))) k)
      = ∑ m' : Fin 2048, recip (refD x0 x1 b n m') :=
    Finset.sum_congr rfl fun k _ => by
      rw [show idx_main_v17 (idx_main_v18 (idx_main_v19 (ix3 b n m))) k = ix3 b n k from idx3_ext _ _ rfl rfl rfl, refRecip]
  rw [hs]

/-- The interpolated feature `d` of query point `(b, n)`. -/
theorem refInterp (b : Fin 4) (n : Fin 16384) (d : Fin 64) :
    val_main_v21 (F := Ideal) x0 x1 x2 (ix3 b n d) = interp (refD x0 x1 b n) (fun m d => x2 (ix3 b m d)) d := by
  rw [val_main_v21_apply]
  unfold interp
  refine Finset.sum_congr rfl fun m _ => ?_
  rw [show lidx_main_v21 (ix3 b n d) m = ix3 b n m from idx3_ext _ _ rfl rfl rfl,
    show ridx_main_v21 (ix3 b n d) m = ix3 b m d from idx3_ext _ _ rfl rfl rfl, refWeight]

/-- The 128 joined features of query point `(b, n)`. -/
theorem refJoined (b : Fin 4) (n : Fin 16384) (c : Fin 128) :
    val_main_v22 (F := Ideal) x0 x1 x2 x3 (ix3 b n c)
      = joined (fun c => x3 (ix3 b n c)) (interp (refD x0 x1 b n) (fun m d => x2 (ix3 b m d))) c := by
  unfold val_main_v22 joined
  by_cases hc : c.val < 64
  · rw [dif_pos hc]
    exact concatenate_pair_apply_left (2 : Fin 3) x3 _ _ (ix3 b n c) rfl (ix3 b n ⟨c.val, hc⟩)
      (fun a => by match a with | ⟨0, _⟩ => rfl | ⟨1, _⟩ => rfl | ⟨2, _⟩ => rfl)
  · rw [dif_neg hc]
    refine (concatenate_pair_apply_right (s₂ := S4x16384x64) (2 : Fin 3) x3 (val_main_v21 (F := Ideal) x0 x1 x2) _ (ix3 b n c) rfl rfl
      (ix3 b n ⟨c.val - 64, by have := c.isLt; omega⟩)
      (fun a ha => by match a with | ⟨0, _⟩ => rfl | ⟨1, _⟩ => rfl | ⟨2, _⟩ => exact absurd rfl ha)
      (by show c.val - 64 + 64 = c.val; omega)).trans ?_
    exact refInterp x0 x1 x2 b n _

/-- The hidden layer's entry `c` at query point `(b, n)`. -/
theorem refHidden (b : Fin 4) (n : Fin 16384) (c : Fin 128) :
    val_main_v42 (F := Ideal) x0 x1 x2 x3 x4 x5 x6 x7 x8 x9 (ix3 b n c)
      = hidden (joined (fun c => x3 (ix3 b n c)) (interp (refD x0 x1 b n) (fun m d => x2 (ix3 b m d)))) x4 x5 x6 x7 x8 x9 c := by
  rw [val_main_v42_apply, val_main_v41_apply, val_main_v38_apply, val_main_v35_apply, val_main_v29_apply,
    val_main_v26_apply, val_main_v23_apply, val_main_v25_apply, val_main_v24_apply, val_main_v28_apply,
    val_main_v27_apply, val_main_v34_apply, val_main_v33_apply, val_main_v32_apply, val_main_v31_apply,
    val_main_v30_apply, val_main_cst_5_apply, val_main_v37_apply, val_main_v36_apply, val_main_v40_apply,
    val_main_v39_apply, val_main_call0_v0_apply, val_main_call0_cst_apply]
  rw [show idx_main_v24 (idx_main_v25 (ix3 b n c)) = ix1 c from idx1_ext _ _ rfl,
    show idx_main_v27 (idx_main_v28 (ix3 b n c)) = ix1 c from idx1_ext _ _ rfl,
    show idx_main_v33 (idx_main_v34 (ix3 b n c)) = ix1 c from idx1_ext _ _ rfl,
    show idx_main_v36 (idx_main_v37 (ix3 b n c)) = ix1 c from idx1_ext _ _ rfl,
    show idx_main_v39 (idx_main_v40 (ix3 b n c)) = ix1 c from idx1_ext _ _ rfl]
  unfold hidden bnorm
  have hs : ∑ k : Fin 128, val_main_v22 (F := Ideal) x0 x1 x2 x3 (lidx_main_v23 (ix3 b n c) k) * x4 (ridx_main_v23 (ix3 b n c) k)
      = ∑ k : Fin 128, joined (fun c => x3 (ix3 b n c)) (interp (refD x0 x1 b n) (fun m d => x2 (ix3 b m d))) k * x4 (ix2 c k) :=
    Finset.sum_congr rfl fun k _ => by
      rw [show lidx_main_v23 (ix3 b n c) k = ix3 b n k from idx3_ext _ _ rfl rfl rfl,
        show ridx_main_v23 (ix3 b n c) k = ix2 c k from idx2_ext _ _ rfl rfl, refJoined]
  rw [hs]
  rfl

/-- The result's entry `o` at query point `(b, n)`. -/
theorem refOut (b : Fin 4) (n : Fin 16384) (o : Fin 64) :
    val_main_v61 (F := Ideal) x0 x1 x2 x3 x4 x5 x6 x7 x8 x9 x10 x11 x12 x13 x14 x15 (ix3 b n o)
      = outRow (refD x0 x1 b n) (fun m d => x2 (ix3 b m d)) (fun c => x3 (ix3 b n c))
          x4 x5 x6 x7 x8 x9 x10 x11 x12 x13 x14 x15 o := by
  rw [val_main_v61_apply, val_main_v58_apply, val_main_v55_apply, val_main_v49_apply, val_main_v46_apply,
    val_main_v43_apply, val_main_v45_apply, val_main_v44_apply, val_main_v48_apply, val_main_v47_apply,
    val_main_v54_apply, val_main_v53_apply, val_main_v52_apply, val_main_v51_apply, val_main_v50_apply,
    val_main_cst_6_apply, val_main_v57_apply, val_main_v56_apply, val_main_v60_apply, val_main_v59_apply]
  rw [show idx_main_v44 (idx_main_v45 (ix3 b n o)) = ix1 o from idx1_ext _ _ rfl,
    show idx_main_v47 (idx_main_v48 (ix3 b n o)) = ix1 o from idx1_ext _ _ rfl,
    show idx_main_v53 (idx_main_v54 (ix3 b n o)) = ix1 o from idx1_ext _ _ rfl,
    show idx_main_v56 (idx_main_v57 (ix3 b n o)) = ix1 o from idx1_ext _ _ rfl,
    show idx_main_v59 (idx_main_v60 (ix3 b n o)) = ix1 o from idx1_ext _ _ rfl]
  unfold outRow outLayer bnorm
  have hs : ∑ k : Fin 128, val_main_v42 (F := Ideal) x0 x1 x2 x3 x4 x5 x6 x7 x8 x9 (lidx_main_v43 (ix3 b n o) k) * x10 (ridx_main_v43 (ix3 b n o) k)
      = ∑ k : Fin 128, hidden (joined (fun c => x3 (ix3 b n c)) (interp (refD x0 x1 b n) (fun m d => x2 (ix3 b m d)))) x4 x5 x6 x7 x8 x9 k * x10 (ix2 o k) :=
    Finset.sum_congr rfl fun k _ => by
      rw [show lidx_main_v43 (ix3 b n o) k = ix3 b n k from idx3_ext _ _ rfl rfl rfl,
        show ridx_main_v43 (ix3 b n o) k = ix2 o k from idx2_ext _ _ rfl rfl, refHidden]
  rw [hs]
  rfl

/-- THE REFERENCE'S RESULT ARRAY is `result` with the distance in its expanded spelling. -/
theorem reference_eq :
    val_main_v61 (F := Ideal) x0 x1 x2 x3 x4 x5 x6 x7 x8 x9 x10 x11 x12 x13 x14 x15
      = result sqDistExp x0 x1 x2 x3 x4 x5 x6 x7 x8 x9 x10 x11 x12 x13 x14 x15 := by
  funext i
  obtain ⟨b, n, o, rfl⟩ : ∃ (b : Fin 4) (n : Fin 16384) (o : Fin 64), i = ix3 b n o := ⟨i 0, i 1, i 2, eq_ix3 i⟩
  exact refOut x0 x1 x2 x3 x4 x5 x6 x7 x8 x9 x10 x11 x12 x13 x14 x15 b n o

end Cert.Upsample

end
-- ==== Proof.Finite.lean ====
/-
  The precondition read: it is the conjunction, array by array, of "every entry's absolute value is below +∞", and an
  extended real with that property is a real number.  Only the two point-coordinate arrays are needed.
-/
import proofs.«143894_j36653250904785_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Upsample

open Idealize.ShloMosaic Cert.Pre_finite_inputs

/-- The word `0x7F800000` denotes +∞. -/
theorem ofBits_inf : Ideal.ofBits .f32 0x7F800000#32 = ⊤ := by simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

instance : Subsingleton S_.Idx := ⟨fun a b => funext fun d => d.elim0⟩

variable [Cert.Pre_finite_inputs.Facts]

/-- Under the precondition the coordinates of the source points and of the query points are real numbers. -/
theorem real_points (a0 : FVec Ideal S4x2048x3 .f32) (a1 : FVec Ideal S4x16384x3 .f32) (a2 : FVec Ideal S4x2048x64 .f32)
    (a3 : FVec Ideal S4x16384x64 .f32) (a4 : FVec Ideal S128x128 .f32) (a5 a6 a7 a8 a9 : FVec Ideal S128 .f32)
    (a10 : FVec Ideal S64x128 .f32) (a11 a12 a13 a14 a15 : FVec Ideal S64 .f32)
    (h : fn (F := Ideal) a0 a1 a2 a3 a4 a5 a6 a7 a8 a9 a10 a11 a12 a13 a14 a15 = fun _ => 1#1) :
    (∀ i, ∃ r : ℝ, a0 i = (r : EReal)) ∧ (∀ i, ∃ r : ℝ, a1 i = (r : EReal)) := by
  have h0 := congrFun h ValueIdx.ix0
  dsimp only [fn, fn_part1, fn_part2, fn_part3, fn_part4] at h0
  have h1 := (IntOp.andi_eq_one.mp h0).1
  have h2 := (IntOp.andi_eq_one.mp h1).1
  have h3 := (IntOp.andi_eq_one.mp h2).1
  have h4 := (IntOp.andi_eq_one.mp h3).1
  have h5 := (IntOp.andi_eq_one.mp h4).1
  have h6 := (IntOp.andi_eq_one.mp h5).1
  have h7 := (IntOp.andi_eq_one.mp h6).1
  have h8 := (IntOp.andi_eq_one.mp h7).1
  have h9 := (IntOp.andi_eq_one.mp h8).1
  have h10 := (IntOp.andi_eq_one.mp h9).1
  have h11 := (IntOp.andi_eq_one.mp h10).1
  have h12 := (IntOp.andi_eq_one.mp h11).1
  have h13 := (IntOp.andi_eq_one.mp h12).1
  have h14 := (IntOp.andi_eq_one.mp h13).1
  obtain ⟨e0, e1⟩ := IntOp.andi_eq_one.mp h14
  exact ⟨fun i => real_of_abs_lt (a0 i) (Host.reduce_andi_all _ _ _ _ ValueIdx.ix0 e0 i),
    fun i => real_of_abs_lt (a1 i) (Host.reduce_andi_all _ _ _ _ ValueIdx.ix0 e1 i)⟩

end Cert.Upsample

end
-- ==== Proof.lean ====
/-
  The kernel interpolates the features of 2048 source points onto 16384 query points with normalised
  inverse-squared-distance weights, joins them to the query points' own features and applies two pointwise
  normalised affine layers; the reference computes the same thing on the host.  At the extended reals the two differ in
  one place only: the kernel squares coordinate differences, the reference expands `|u|² + |d|² − 2 u·d`.  On real
  coordinates — which the precondition gives — these are one number, and everything after it is the same function of
  it on both sides.  The kernel's side is read block by block off its generated run and put together over the grid
  (Blocks), the reference's side stage by stage off its generated run (RefRead); Spec holds the common function and
  the one law.
-/
import proofs.«143894_j36653250904785_1_alg».proof.Defs
import proofs.«143894_j36653250904785_1_alg».proof.Proof.Gen.Kernel
import proofs.«143894_j36653250904785_1_alg».proof.Proof.Gen.Kernel.Skeleton
import proofs.«143894_j36653250904785_1_alg».proof.Proof.Gen.Kernel.Launch
import proofs.«143894_j36653250904785_1_alg».proof.Proof.Gen.Kernel.Points
import proofs.«143894_j36653250904785_1_alg».proof.Proof.Gen.Kernel.Frame
import proofs.«143894_j36653250904785_1_alg».proof.Proof.Gen.KernelIdeal
import proofs.«143894_j36653250904785_1_alg».proof.Proof.Gen.KernelIdeal.Skeleton
import proofs.«143894_j36653250904785_1_alg».proof.Proof.Gen.KernelIdeal.Launch
import proofs.«143894_j36653250904785_1_alg».proof.Proof.Gen.KernelIdeal.Points
import proofs.«143894_j36653250904785_1_alg».proof.Proof.Gen.KernelIdeal.Frame
import proofs.«143894_j36653250904785_1_alg».proof.Proof.Gen.ReferenceIdeal
import proofs.«143894_j36653250904785_1_alg».proof.Proof.Gen.Pre_finite_inputs
import proofs.«143894_j36653250904785_1_alg».proof.Proof.Gen.KernelIdeal.Value
import proofs.«143894_j36653250904785_1_alg».proof.Proof.Gen.ReferenceIdeal.Run
import proofs.«143894_j36653250904785_1_alg».proof.Proof.Gen.ReferenceIdeal.Read
import proofs.«143894_j36653250904785_1_alg».proof.Proof.Blocks
import proofs.«143894_j36653250904785_1_alg».proof.Proof.RefRead
import proofs.«143894_j36653250904785_1_alg».proof.Proof.Finite
import Idealize.ShloMosaic.Adequacy
import Idealize.ShloMosaic.Init

noncomputable section

namespace Cert.Proof

open Idealize.ShloMosaic Idealize.SL.Sem

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `result sqDist` of the (agreeing) arguments: the kernel by its run read
    over the grid, the reference by its run read stage by stage and the law joining the two spellings of the squared
    distance on the real coordinates the precondition gives. -/
theorem algebraic : Cert.algebraic_KernelIdeal_ReferenceIdeal := by
  intro m ρ m' ρ' hpre hagree
  refine ⟨fun c => Cert.Upsample.G m c, Cert.Upsample.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  obtain ⟨hxd, hxu⟩ := Cert.Upsample.real_points _ _ _ _ _ _ _ _ _ _ _ _ _ _ _ _ (hpre c)
  rw [Cert.ReferenceIdeal.Read.val_main_v61_eq, e0, e1, e2, e3, e4, e5, e6, e7, e8, e9, e10, e11, e12, e13, e14, e15,
    Cert.Upsample.reference_eq]
  exact Cert.Upsample.result_sqDistExp_eq _ _ hxd hxu _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
